-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x8192 : Shape := ⟨3, ![128, 1, 8192]⟩
abbrev S128x8192x64 : Shape := ⟨3, ![128, 8192, 64]⟩
abbrev S_ : Shape := ⟨0, ![]⟩

class Facts : Prop where
  bcast_S_S128x1x8192 : S_.BroadcastsInDim S128x1x8192 (![] : Fin 0 → Fin S128x1x8192.rank)
  reducesTo_S128x1x8192_S_d0_1_2 : S128x1x8192.ReducesTo [0, 1, 2] S_
  h_S_ : 0 < S_.numel
  bcast_S_S128x8192x64 : S_.BroadcastsInDim S128x8192x64 (![] : Fin 0 → Fin S128x8192x64.rank)
  reducesTo_S128x8192x64_S_d0_1_2 : S128x8192x64.ReducesTo [0, 1, 2] S_

variable [Facts]

def fn {F : FTy → Type} [FloatOps F] (main_arg0 : FVec F S128x1x8192 .f32) (main_arg1 : FVec F S128x8192x64 .f32) (main_arg2 : IVec S128x1x8192 1) : IVec S_ 1 :=
  let main_v0 : FVec F S128x1x8192 .f32 := Host.absf main_arg0
  let main_cst : FVec F S_ .f32 := constant S_ .f32 0x7F800000#32
  let main_v1 : FVec F S128x1x8192 .f32 := broadcastInDim S128x1x8192 ![] bcast_S_S128x1x8192 main_cst
  let main_v2 : IVec S128x1x8192 1 := cmpf .olt main_v0 main_v1
  let main_c : IVec S_ 1 := constantI S_ 1 1#1
  let main_v3 : IVec S_ 1 := (fun x v => Host.reduce IntOp.andi x v reducesTo_S128x1x8192_S_d0_1_2 h_S_) main_v2 main_c
  let main_v4 : FVec F S128x8192x64 .f32 := Host.absf main_arg1
  let main_cst_0 : FVec F S_ .f32 := constant S_ .f32 0x7F800000#32
  let main_v5 : FVec F S128x8192x64 .f32 := broadcastInDim S128x8192x64 ![] bcast_S_S128x8192x64 main_cst_0
  let main_v6 : IVec S128x8192x64 1 := cmpf .olt main_v4 main_v5
  let main_c_1 : IVec S_ 1 := constantI S_ 1 1#1
  let main_v7 : IVec S_ 1 := (fun x v => Host.reduce IntOp.andi x v reducesTo_S128x8192x64_S_d0_1_2 h_S_) main_v6 main_c_1
  let main_v8 : IVec S_ 1 := andi main_v3 main_v7
  main_v8
-- ==== Kernel.lean ====
abbrev S128x1x8192 : Shape := ⟨3, ![128, 1, 8192]⟩
abbrev S128x8192x64 : Shape := ⟨3, ![128, 8192, 64]⟩
abbrev S128x1x64 : Shape := ⟨3, ![128, 1, 64]⟩
abbrev S4x1x8192 : Shape := ⟨3, ![4, 1, 8192]⟩
abbrev S4x4096x64 : Shape := ⟨3, ![4, 4096, 64]⟩
abbrev S4x1x64 : Shape := ⟨3, ![4, 1, 64]⟩
abbrev S4x1 : Shape := ⟨2, ![4, 1]⟩
abbrev S4x1x1 : Shape := ⟨3, ![4, 1, 1]⟩
abbrev S4x1x4096 : Shape := ⟨3, ![4, 1, 4096]⟩

abbrev nBuf : Space → Nat
  | .hbm => 5
  | .vmem => 10
  | .smem => 0
  | _ => 0

abbrev bufTy : (tb : Table) → Fin (tcTables nBuf tb) → BufTy
  | .hbm, ⟨0, _⟩ => ⟨S128x1x8192, .f32⟩
  | .hbm, ⟨1, _⟩ => ⟨S128x8192x64, .f32⟩
  | .hbm, ⟨2, _⟩ => ⟨S128x1x8192, .i1⟩
  | .hbm, ⟨3, _⟩ => ⟨S128x1x8192, .i32⟩
  | .hbm, ⟨4, _⟩ => ⟨S128x1x64, .f32⟩
  | .local _ .vmem, ⟨0, _⟩ => ⟨S4x1x8192, .f32⟩
  | .local _ .vmem, ⟨1, _⟩ => ⟨S4x1x8192, .f32⟩
  | .local _ .vmem, ⟨2, _⟩ => ⟨S4x4096x64, .f32⟩
  | .local _ .vmem, ⟨3, _⟩ => ⟨S4x4096x64, .f32⟩
  | .local _ .vmem, ⟨4, _⟩ => ⟨S4x1x8192, .i32⟩
  | .local _ .vmem, ⟨5, _⟩ => ⟨S4x1x8192, .i32⟩
  | .local _ .vmem, ⟨6, _⟩ => ⟨S4x1x64, .f32⟩
  | .local _ .vmem, ⟨7, _⟩ => ⟨S4x1x64, .f32⟩
  | .local _ .vmem, ⟨8, _⟩ => ⟨S4x1x8192, .bf16⟩
  | .local _ .vmem, ⟨9, _⟩ => ⟨S4x1x64, .f32⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  v3
def k0_off1 (i : grid0.Coords) : Fin 3 → Nat :=
  let c0 : Index := 0#32
  let c0_1 : Index := 0#32
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  ![0, 0, v5.toNat]
def k0_cond2 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_11 : BitVec 32 := 0#32
  let v17 : BitVec 1 := Scalar.cmpi .ne v16 c0_i32_11
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  natLt_1_32 : 1 < 32
  inb_S4x1x8192_S4x1x8192_0_0_0 : ∀ a, (![0, 0, 0] : Fin 3 → Nat) a + S4x1x8192.size a ≤ S4x1x8192.size a
  h_S4x1x8192 : 0 < S4x1x8192.numel
  reduces_S4x1x8192_S4x1 : S4x1x8192.Reduces [2] S4x1
  shapeCasts_S4x1_S4x1x1 : S4x1.ShapeCasts S4x1x1
  broadcasts_S4x1x1_S4x1x8192 : S4x1x1.Broadcasts S4x1x8192
  bitsLt_bf16_f32 : FTy.bits .bf16 < FTy.bits .f32
  shapeCasts_S4x1x8192_S4x1x8192 : S4x1x8192.ShapeCasts S4x1x8192
  packedbf16_S4x1x8192_S4x1x8192_0_0_0 : (Rect.unit (s := S4x1x8192) ![0, 0, 0] S4x1x8192.size inb_S4x1x8192_S4x1x8192_0_0_0).PackedRows (EltTy.packing .bf16)
  inb_S4x1x64_S4x1x64_0_0_0 : ∀ a, (![0, 0, 0] : Fin 3 → Nat) a + S4x1x64.size a ≤ S4x1x64.size a
  h_S4x1x64 : 0 < S4x1x64.numel
  shapeCasts_S4x1x64_S4x1x64 : S4x1x64.ShapeCasts S4x1x64
  h_S4x1x4096 : 0 < S4x1x4096.numel
  inb_S4x4096x64_S4x4096x64_0_0_0 : ∀ a, (![0, 0, 0] : Fin 3 → Nat) a + S4x4096x64.size a ≤ S4x4096x64.size a
  h_S4x4096x64 : 0 < S4x4096x64.numel
  dot_S4x1x4096_S4x4096x64_S4x1x64_2_1_1_2_0_0_wf : DotDims.WF S4x1x4096 S4x4096x64 S4x1x64 [2] [1] [1] [2] [0] [0]
  hrank0 : 0 < grid0.rank
  k0_mult1_dvd : ∀ i : grid0.Coords, 4096 ∣ (k0_mult1 i).toNat
  k0_off1_inb : ∀ i : grid0.Coords, ∀ a, (k0_off1 i) a + S4x1x4096.size a ≤ S4x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x8192.size a ≤ S128x1x8192.size a
  hwx0_0 : ∀ i : grid0.Coords, EltTy.bits .f32 = 32 ∨ (Rect.block (s := S128x1x8192) S4x1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4096x64.size a ≤ S128x8192x64.size a
  hwx0_1 : ∀ i : grid0.Coords, EltTy.bits .f32 = 32 ∨ (Rect.block (s := S128x8192x64) S4x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x8192.size a ≤ S128x1x8192.size a
  hwx0_2 : ∀ i : grid0.Coords, EltTy.bits .i32 = 32 ∨ (Rect.block (s := S128x1x8192) S4x1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x64.size a ≤ S128x1x64.size a
  hwx0_3 : ∀ i : grid0.Coords, EltTy.bits .f32 = 32 ∨ (Rect.block (s := S128x1x64) S4x1x64.size (cc0_transform_3 i) (hinb0_3 i)).WholeWords (EltTy.packing .f32)

variable [Facts₀]

def dot_S4x1x4096_S4x4096x64_S4x1x64_2_1_1_2_0_0 : DotDims S4x1x4096 S4x4096x64 S4x1x64 where
  lhsContracting := [2]
  rhsContracting := [1]
  lhsNonContracting := [1]
  rhsNonContracting := [2]
  lhsBatch := [0]
  rhsBatch := [0]
  wf := dot_S4x1x4096_S4x4096x64_S4x1x64_2_1_1_2_0_0_wf

abbrev win0_0 : Pipeline.Window sig grid0 :=
  Pipeline.Window.ofSpec (Memref.whole main_arg0) S4x1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x1x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x1x8192 : Shape := ⟨3, ![128, 1, 8192]⟩
abbrev S128x8192x64 : Shape := ⟨3, ![128, 8192, 64]⟩
abbrev S_ : Shape := ⟨0, ![]⟩
abbrev S128x1 : Shape := ⟨2, ![128, 1]⟩
abbrev S128x1x1 : Shape := ⟨3, ![128, 1, 1]⟩
abbrev S128x1x64 : Shape := ⟨3, ![128, 1, 64]⟩

abbrev nBuf : Space → Nat
  | .hbm => 22
  | .vmem => 0
  | .smem => 0
  | _ => 0

abbrev bufTy : (tb : Table) → Fin (tcTables nBuf tb) → BufTy
  | .hbm, ⟨0, _⟩ => ⟨S128x1x8192, .f32⟩
  | .hbm, ⟨1, _⟩ => ⟨S128x8192x64, .f32⟩
  | .hbm, ⟨2, _⟩ => ⟨S128x1x8192, .i1⟩
  | .hbm, ⟨3, _⟩ => ⟨S_, .f32⟩
  | .hbm, ⟨4, _⟩ => ⟨S_, .f32⟩
  | .hbm, ⟨5, _⟩ => ⟨S128x1x8192, .f32⟩
  | .hbm, ⟨6, _⟩ => ⟨S128x1x8192, .f32⟩
  | .hbm, ⟨7, _⟩ => ⟨S_, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1x1, .f32⟩
  | .hbm, ⟨13, _⟩ => ⟨S128x1x8192, .f32⟩
  | .hbm, ⟨14, _⟩ => ⟨S128x1x8192, .f32⟩
  | .hbm, ⟨15, _⟩ => ⟨S128x1x8192, .f32⟩
  | .hbm, ⟨16, _⟩ => ⟨S_, .f32⟩
  | .hbm, ⟨17, _⟩ => ⟨S128x1, .f32⟩
  | .hbm, ⟨18, _⟩ => ⟨S128x1x1, .f32⟩
  | .hbm, ⟨19, _⟩ => ⟨S128x1x8192, .f32⟩
  | .hbm, ⟨20, _⟩ => ⟨S128x1x8192, .f32⟩
  | .hbm, ⟨21, _⟩ => ⟨S128x1x64, .f32⟩
  | _, _ => ⟨S128x1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S_S128x1x8192 : S_.BroadcastsInDim S128x1x8192 (![] : Fin 0 → Fin S128x1x8192.rank)
  reducesTo_S128x1x8192_S128x1_d2 : S128x1x8192.ReducesTo [2] S128x1
  h_S_ : 0 < S_.numel
  bcast_S_S128x1 : S_.BroadcastsInDim S128x1 (![] : Fin 0 → Fin S128x1.rank)
  bcast_S128x1_S128x1x1_0_1 : S128x1.BroadcastsInDim S128x1x1 (![0, 1] : Fin 2 → Fin S128x1x1.rank)
  bcast_S128x1x1_S128x1x8192_0_1_2 : S128x1x1.BroadcastsInDim S128x1x8192 (![0, 1, 2] : Fin 3 → Fin S128x1x8192.rank)
  dot_S128x1x8192_S128x8192x64_S128x1x64_2_1_1_2_0_0_wf : DotDims.WF S128x1x8192 S128x8192x64 S128x1x64 [2] [1] [1] [2] [0] [0]

variable [Facts₀]

def dot_S128x1x8192_S128x8192x64_S128x1x64_2_1_1_2_0_0 : DotDims S128x1x8192 S128x8192x64 S128x1x64 where
  lhsContracting := [2]
  rhsContracting := [1]
  lhsNonContracting := [1]
  rhsNonContracting := [2]
  lhsBatch := [0]
  rhsBatch := [0]
  wf := dot_S128x1x8192_S128x8192x64_S128x1x64_2_1_1_2_0_0_wf

class Facts : Prop extends Facts₀ where

variable [Facts]
-- ==== Proof.Pieces.lean ====
/-
  What one run of the kernel body leaves in the two carried scratch buffers and in the output's staging buffer,
  as the body's pure payloads of the blocks it loaded.

  At a first step of a batch block (the position axis at 0) the body overwrites the weights scratch with the softmax of
  the masked scores, zeroes the accumulator, then adds the first half's contraction: the accumulator ends at
  `0-block + weights[first half] · values`. At the last step (the position axis at 1) it adds the second half's
  contraction to what the step before left and copies the accumulator out.
  The half of the weights a step contracts is the load of 4096 positions at the offset the step computes.
-/
import proofs.«159223_j16355235463569_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem zero3 : (![0, 0, 0] : Fin 3 → Nat) = fun _ => 0 := funext fun a => by fin_cases a <;> rfl

/-- The 4096 positions of the weights a step contracts: the window of the weights scratch at the step's offset. -/
abbrev half (i : grid0.Coords) (w : Vec F S4x1x8192 .bf16) : Vec F S4x1x4096 .bf16 :=
  View.ld w (Rect.unit (s := S4x1x8192) (k0_off1 i) S4x1x4096.size (k0_off1_inb i))

/-- A first step leaves the softmax of the masked scores in the weights scratch. -/
theorem weights_first (c : Dev nD) (i : grid0.Coords) (arg2 : Memref sig .tc .vmem S4x1x8192 .f32) (harg2 : arg2.IsWhole) (arg3 : Memref sig .tc .vmem S4x4096x64 .f32) (harg3 : arg3.IsWhole) (arg4 : Memref sig .tc .vmem S4x1x8192 .i32) (harg4 : arg4.IsWhole) (arg5 : Memref sig .tc .vmem S4x1x64 .f32) (harg5 : arg5.IsWhole) (arg6 : Memref sig .tc .vmem S4x1x8192 .bf16) (harg6 : arg6.IsWhole) (arg7 : Memref sig .tc .vmem S4x1x64 .f32) (harg7 : arg7.IsWhole) (hc0 : cond0_0 i) (hc1 : ¬cond0_1 i)
    (x0 : Vec F S4x1x8192 .f32) (x1 : Vec F S4x4096x64 .f32) (x2 : Vec F S4x1x8192 .i32) :
    sout0_A_0 c i arg2 harg2 arg3 harg3 arg4 harg4 arg5 harg5 arg6 harg6 arg7 harg7 hc0 hc1 x0 x1 x2 = k0_pay1 x0 x2 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_unit_zero zero3]
  simp only [View.readAt_eq_ld, harg2.read_unread, harg4.read_unread, View.ld_unit_zero (S := S4x1x8192) zero3]

/-- A first step leaves in the accumulator the zero block plus the first half's contraction. -/
theorem acc_first (c : Dev nD) (i : grid0.Coords) (arg2 : Memref sig .tc .vmem S4x1x8192 .f32) (harg2 : arg2.IsWhole) (arg3 : Memref sig .tc .vmem S4x4096x64 .f32) (harg3 : arg3.IsWhole) (arg4 : Memref sig .tc .vmem S4x1x8192 .i32) (harg4 : arg4.IsWhole) (arg5 : Memref sig .tc .vmem S4x1x64 .f32) (harg5 : arg5.IsWhole) (arg6 : Memref sig .tc .vmem S4x1x8192 .bf16) (harg6 : arg6.IsWhole) (arg7 : Memref sig .tc .vmem S4x1x64 .f32) (harg7 : arg7.IsWhole) (hc0 : cond0_0 i) (hc1 : ¬cond0_1 i)
    (x0 : Vec F S4x1x8192 .f32) (x1 : Vec F S4x4096x64 .f32) (x2 : Vec F S4x1x8192 .i32) :
    sout0_A_1 c i arg2 harg2 arg3 harg3 arg4 harg4 arg5 harg5 arg6 harg6 arg7 harg7 hc0 hc1 x0 x1 x2 = k0_pay3 (half i (k0_pay1 x0 x2)) x1 k0_pay2 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S4x1x64) zero3, View.readCov_unit_zero (S := S4x1x64) _ zero3,
    View.readAt_writes_junk_eq_canon, View.canon_unit_zero zero3]
  simp only [View.readAt_eq_ld, harg2.read_unread, harg3.read_unread, harg4.read_unread,
    View.ld_unit_zero (S := S4x1x8192) zero3, View.ld_unit_zero (S := S4x4096x64) zero3]
  rfl

/-- A last step leaves in the accumulator what the step before left plus the second half's contraction. -/
theorem acc_last (c : Dev nD) (i : grid0.Coords) (arg2 : Memref sig .tc .vmem S4x1x8192 .f32) (harg2 : arg2.IsWhole) (arg3 : Memref sig .tc .vmem S4x4096x64 .f32) (harg3 : arg3.IsWhole) (arg4 : Memref sig .tc .vmem S4x1x8192 .i32) (harg4 : arg4.IsWhole) (arg5 : Memref sig .tc .vmem S4x1x64 .f32) (harg5 : arg5.IsWhole) (arg6 : Memref sig .tc .vmem S4x1x8192 .bf16) (harg6 : arg6.IsWhole) (arg7 : Memref sig .tc .vmem S4x1x64 .f32) (harg7 : arg7.IsWhole) (hc0 : ¬cond0_0 i) (hc1 : cond0_1 i)
    (x0 : Vec F S4x1x8192 .f32) (x1 : Vec F S4x4096x64 .f32) (x2 : Vec F S4x1x8192 .i32)
    (xs0 : Vec F S4x1x8192 .bf16) (xs1 : Vec F S4x1x64 .f32) :
    sout0_B_1 c i arg2 harg2 arg3 harg3 arg4 harg4 arg5 harg5 arg6 harg6 arg7 harg7 hc0 hc1 x0 x1 x2 xs0 xs1 = k0_pay3 (half i xs0) x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero zero3]
  simp only [View.readAt_eq_ld, harg3.read_unread, harg6.read_unread, harg7.read_unread,
    View.ld_unit_zero (S := S4x1x64) zero3, View.ld_unit_zero (S := S4x4096x64) zero3]
  rfl

/-- A last step copies that accumulator into the output's staging buffer. -/
theorem out_last (c : Dev nD) (i : grid0.Coords) (arg2 : Memref sig .tc .vmem S4x1x8192 .f32) (harg2 : arg2.IsWhole) (arg3 : Memref sig .tc .vmem S4x4096x64 .f32) (harg3 : arg3.IsWhole) (arg4 : Memref sig .tc .vmem S4x1x8192 .i32) (harg4 : arg4.IsWhole) (arg5 : Memref sig .tc .vmem S4x1x64 .f32) (harg5 : arg5.IsWhole) (arg6 : Memref sig .tc .vmem S4x1x8192 .bf16) (harg6 : arg6.IsWhole) (arg7 : Memref sig .tc .vmem S4x1x64 .f32) (harg7 : arg7.IsWhole) (hc0 : ¬cond0_0 i) (hc1 : cond0_1 i)
    (x0 : Vec F S4x1x8192 .f32) (x1 : Vec F S4x4096x64 .f32) (x2 : Vec F S4x1x8192 .i32)
    (xs0 : Vec F S4x1x8192 .bf16) (xs1 : Vec F S4x1x64 .f32) :
    out0_B_3 c i arg2 harg2 arg3 harg3 arg4 harg4 arg5 harg5 arg6 harg6 arg7 harg7 hc0 hc1 x0 x1 x2 xs0 xs1 = k0_pay3 (half i xs0) x1 xs1 := by
  unfold out0_B_3
  rw [View.read_writes_eq_canon _ _ _ (cover0_B_3 c i arg2 harg2 arg3 harg3 arg4 harg4 arg5 harg5 arg6 harg6 arg7 harg7 hc0 hc1 x0 x1 x2 xs0 xs1)]
  unfold kernelRun0_B
  dsimp only
  sl_unfold_words
  rw [View.canon_unit_zero zero3, View.readCov_unit_zero (S := S4x1x64) _ zero3]
  simp only [View.readAt_eq_ld, harg3.read_unread, harg6.read_unread, harg7.read_unread,
    View.ld_unit_zero (S := S4x1x64) zero3, View.ld_unit_zero (S := S4x4096x64) zero3]
  rfl

end Cert.KernelIdeal.Pieces

end
-- ==== Proof.Spec.lean ====
/-
  Masked softmax attention over one long axis, as ONE function of the three argument arrays, on the extended reals.

  For a batch row `b` the scores are `s k = a(b,0,k)` where the mask bit is set and the fill `-2^32` elsewhere;
  the weights are `w k = e^(s k - M) / Σ_j e^(s j - M)` with `M` the row's running maximum from `-∞`; the result at
  `(b, 0, u)` is `Σ_k w k · v(b, k, u)` over all 8192 positions. Both programs are shown to compute this function:
  the reference in one contraction, the kernel in two halves of 4096 added into a zeroed accumulator.
-/
import Idealize.ShloMosaic.PureOps.Ideal
import Idealize.ShloMosaic.Lib.ValueIdx

noncomputable section

namespace Cert.Attn

open Idealize.ShloMosaic Idealize.ShloMosaic.ValueIdx

/-- The value written where the mask bit is clear: the f32 number `-2^32`. -/
abbrev fill : EReal := Ideal.ofBits .f32 0xCF800000#32

/-- The seed of a row's running maximum: the f32 pattern of `-∞`. -/
abbrev seed : EReal := Ideal.ofBits .f32 0xFF800000#32

/-- A row's maximum, folded from the seed. -/
def rowMax {n : Nat} (s : Fin n → EReal) : EReal := (Finset.univ : Finset (Fin n)).fold max seed s

/-- A row's shifted exponentials `e^(s k - max s)`. -/
def rowExp {n : Nat} (s : Fin n → EReal) (k : Fin n) : EReal := Ideal.exp (s k - rowMax s)

/-- A row's softmax weights: each shifted exponential over their sum. -/
def weight {n : Nat} (s : Fin n → EReal) (k : Fin n) : EReal := Ideal.div (rowExp s k) (∑ j : Fin n, rowExp s j)

/-- Row `b`'s masked scores: the alignment score where the mask bit is set, the fill elsewhere. -/
def score (a : (⟨3, ![128, 1, 8192]⟩ : Shape).Idx → EReal) (μ : (⟨3, ![128, 1, 8192]⟩ : Shape).Idx → BitVec 1)
    (b : Fin 128) (k : Fin 8192) : EReal :=
  Scalar.select (μ (ix3 b 0 k)) (a (ix3 b 0 k)) fill

/-- The attention output of batch row `b` in column `u`: the weighted sum of the row's values over all positions. -/
def outAt (a : (⟨3, ![128, 1, 8192]⟩ : Shape).Idx → EReal) (v : (⟨3, ![128, 8192, 64]⟩ : Shape).Idx → EReal)
    (μ : (⟨3, ![128, 1, 8192]⟩ : Shape).Idx → BitVec 1) (b : Fin 128) (u : Fin 64) : EReal :=
  ∑ k : Fin 8192, weight (score a μ b) k * v (ix3 b k u)

/-- The attention output as an array: entry `(b, 0, u)` is `outAt b u`. -/
def out (a : (⟨3, ![128, 1, 8192]⟩ : Shape).Idx → EReal) (v : (⟨3, ![128, 8192, 64]⟩ : Shape).Idx → EReal)
    (μ : (⟨3, ![128, 1, 8192]⟩ : Shape).Idx → BitVec 1) (i : (⟨3, ![128, 1, 64]⟩ : Shape).Idx) : EReal :=
  outAt a v μ (i 0) (i 2)

theorem out_ix3 (a : (⟨3, ![128, 1, 8192]⟩ : Shape).Idx → EReal) (v : (⟨3, ![128, 8192, 64]⟩ : Shape).Idx → EReal)
    (μ : (⟨3, ![128, 1, 8192]⟩ : Shape).Idx → BitVec 1) (b : Fin 128) (z : Fin 1) (u : Fin 64) :
    out a v μ (ix3 b z u) = outAt a v μ b u := rfl

/-- The seed is below every running maximum folded from it, so taking the maximum with it again changes nothing. -/
theorem max_seed_rowMax {n : Nat} (s : Fin n → EReal) : max seed (rowMax s) = rowMax s :=
  max_eq_right ((Finset.le_fold_max (s := Finset.univ) (f := s) (b := seed) (c := seed)).2 (Or.inl le_rfl))

/-- The output of a row is its first half's contraction, added into a zero, plus its second half's: the kernel's
    two accumulation steps. -/
theorem outAt_two_steps (a : (⟨3, ![128, 1, 8192]⟩ : Shape).Idx → EReal) (v : (⟨3, ![128, 8192, 64]⟩ : Shape).Idx → EReal)
    (μ : (⟨3, ![128, 1, 8192]⟩ : Shape).Idx → BitVec 1) (b : Fin 128) (u : Fin 64) :
    outAt a v μ b u
      = (0 + ∑ k : Fin 4096, weight (score a μ b) (Fin.castAdd 4096 k) * v (ix3 b (Fin.castAdd 4096 k) u))
        + ∑ k : Fin 4096, weight (score a μ b) (Fin.natAdd 4096 k) * v (ix3 b (Fin.natAdd 4096 k) u) := by
  rw [zero_add]
  exact Fin.sum_univ_add (a := 4096) (b := 4096) (fun k : Fin (4096 + 4096) => weight (score a μ b) k * v (ix3 b k u))

end Cert.Attn

end
-- ==== Proof.Rows.lean ====
/-
  The kernel body's payloads read at an index on the extended reals, over variables of the literal vector types.

  The weights payload at `(p, 0, k)` is the softmax weight of row `p`'s masked scores at position `k`: the lane
  maximum and the lane sum are a running maximum and a sum over the row's 8192 positions, and a column of row results
  recast and spread back along the lanes reads the row's result. The accumulator payload at `(p, 0, u)` is what the
  accumulator held plus the sum over 4096 positions of weight times value. The window of the weights a step loads
  starts at 4096 times the step's position coordinate. Two steps make the whole contraction: a sum over 8192
  positions is the sum over the first 4096 plus the sum over the last 4096.
-/
import proofs.«159223_j16355235463569_2_alg».proof.Proof.Pieces
import proofs.«159223_j16355235463569_2_alg».proof.Proof.Spec
import Idealize.ShloMosaic.PureOps.Ideal.Laws
import Idealize.ShloMosaic.Lib.ValueIdx
import Idealize.ShloMosaic.Lib.Pipeline.Value

noncomputable section

namespace Cert.KernelIdeal.Rows

open Cert.KernelIdeal Cert.KernelIdeal.Gen Cert.KernelIdeal.Pieces Cert.Attn
open Idealize.ShloMosaic Idealize.ShloMosaic.ValueIdx

/-- Above row `p` of the column of row results, position `k` inserted on the reduced axis is `(p, 0, k)`. -/
theorem lift_row (h : S4x1x8192.Reduces [2] S4x1) (p : Fin 4) (k : Fin 8192) :
    h.lift (ix2 p (0 : Fin 1)) k = ix3 p 0 k :=
  funext fun a => Fin.ext (by match a with | ⟨0, _⟩ => rfl | ⟨1, _⟩ => rfl | ⟨2, _⟩ => rfl)

/-- The lane maximum of a block of rows, at row `p`: the row's running maximum from the seed. -/
theorem rowmax_apply (s : FVec Ideal S4x1x8192 .f32) (h : S4x1x8192.Reduces [2] S4x1) (hφ : FKind.Formats .f32)
    (hacc : (0xFF800000#32 : BitVec 32) = 0xFF800000#32) (p : Fin 4) :
    multiReduction .maximumf [2] S4x1 s 0xFF800000#32 h hφ hacc (ix2 p (0 : Fin 1)) = rowMax (fun k : Fin 8192 => s (ix3 p 0 k)) :=
  (Ideal.multiReduction_maximumf_single s 0xFF800000#32 h hφ hacc (ix2 p (0 : Fin 1))).trans
    (congrArg (fun f : Fin 8192 → EReal => (Finset.univ : Finset (Fin 8192)).fold max seed f)
      (funext fun k => congrArg s (lift_row h p k)))

/-- The lane sum of a block of rows, at row `p`: the sum over the row's positions. -/
theorem rowsum_apply (s : FVec Ideal S4x1x8192 .f32) (h : S4x1x8192.Reduces [2] S4x1) (hφ : FKind.Formats .f32)
    (hacc : (0x00000000#32 : BitVec 32) = 0x00000000#32) (p : Fin 4) :
    multiReduction .add [2] S4x1 s 0x00000000#32 h hφ hacc (ix2 p (0 : Fin 1)) = ∑ k : Fin 8192, s (ix3 p 0 k) :=
  (Ideal.multiReduction_add_single s 0x00000000#32 h hφ hacc (ix2 p (0 : Fin 1))).trans
    (Finset.sum_congr rfl fun k _ => congrArg s (lift_row h p k))

/-- A column of row results, recast to a unit lane and spread along the positions, reads at `(p, 0, k)` the result of row `p`. -/
theorem col_bcast {α : Type} (r : S4x1.Idx → α) (hc : S4x1.ShapeCasts S4x1x1) (hb : S4x1x1.Broadcasts S4x1x8192)
    (p : Fin 4) (k : Fin 8192) :
    broadcastTo S4x1x8192 (shapeCast S4x1x1 r hc) hb (ix3 p 0 k) = r (ix2 p (0 : Fin 1)) := by
  rw [broadcastTo_apply _ hb (ix3 p 0 k) (ix3 p (0 : Fin 1) (0 : Fin 1)) (fun a => by
        match a with
        | ⟨0, _⟩ => show p.val = if (4 : Nat) = 1 then 0 else p.val; rw [if_neg (by decide)]
        | ⟨1, _⟩ => show 0 = if (1 : Nat) = 1 then 0 else _; rw [if_pos rfl]
        | ⟨2, _⟩ => show 0 = if (1 : Nat) = 1 then 0 else _; rw [if_pos rfl])]
  exact shapeCast_apply r hc (ix3 p (0 : Fin 1) (0 : Fin 1)) (ix2 p (0 : Fin 1)) (by
    rw [Shape.rowMajor_val_two, Shape.rowMajor_val_three]
    show p.val * 1 + 0 = (p.val * 1 + 0) * 1 + 0
    omega)

/-- Row `p`'s masked scores read off a block of alignment scores and a block of mask words. -/
def blkScore (x0 : Vec Ideal S4x1x8192 .f32) (x2 : Vec Ideal S4x1x8192 .i32) (p : Fin 4) (k : Fin 8192) : EReal :=
  Scalar.select (Scalar.cmpi .ne (x2 (ix3 p 0 k)) 0#32) (x0 (ix3 p 0 k)) fill

/-- A block of shifted exponentials `e^(s - max s)`, the maximum taken along the positions, at `(p, 0, j)`. -/
theorem shifted_exp (s : FVec Ideal S4x1x8192 .f32) (h : S4x1x8192.Reduces [2] S4x1) (hφ : FKind.Formats .f32)
    (hacc : (0xFF800000#32 : BitVec 32) = 0xFF800000#32) (hc : S4x1.ShapeCasts S4x1x1)
    (hb : S4x1x1.Broadcasts S4x1x8192) (p : Fin 4) (j : Fin 8192) :
    exp (subf s (broadcastTo S4x1x8192 (shapeCast S4x1x1 (multiReduction .maximumf [2] S4x1 s 0xFF800000#32 h hφ hacc) hc) hb)) (ix3 p 0 j)
      = rowExp (fun k : Fin 8192 => s (ix3 p 0 k)) j := by
  show Ideal.exp (s (ix3 p 0 j) - broadcastTo S4x1x8192 _ hb (ix3 p 0 j)) = _
  rw [col_bcast, rowmax_apply]
  rfl

/-- The weights payload at `(p, 0, k)`: row `p`'s softmax weight at position `k`. -/
theorem softmax_apply (x0 : Vec Ideal S4x1x8192 .f32) (x2 : Vec Ideal S4x1x8192 .i32) (p : Fin 4) (k : Fin 8192) :
    k0_pay1 (F := Ideal) x0 x2 (ix3 p 0 k) = weight (blkScore x0 x2 p) k := by
  unfold k0_pay1
  dsimp only
  rw [shapeCast_self, truncf_apply, divf_apply, col_bcast, rowsum_apply, shifted_exp]
  refine (congrArg (Ideal.div _) (Finset.sum_congr rfl fun j _ => shifted_exp _ _ _ _ _ _ p j)).trans ?_
  rfl

/-! ## The contraction payload -/

theorem lhs0 (j : S4x1x64.Idx) (q : dot_S4x1x4096_S4x4096x64_S4x1x64_2_1_1_2_0_0.contr.Idx) : (dot_S4x1x4096_S4x4096x64_S4x1x64_2_1_1_2_0_0.lhsIdx j q 0).val = (j 0).val := by
  unfold DotDims.lhsIdx
  rw [dif_pos (show (0 : Fin S4x1x4096.rank) ∈ dot_S4x1x4096_S4x4096x64_S4x1x64_2_1_1_2_0_0.lhsBatch by decide)]
  rfl
theorem lhs1 (j : S4x1x64.Idx) (q : dot_S4x1x4096_S4x4096x64_S4x1x64_2_1_1_2_0_0.contr.Idx) : (dot_S4x1x4096_S4x4096x64_S4x1x64_2_1_1_2_0_0.lhsIdx j q 1).val = (j 1).val := by
  unfold DotDims.lhsIdx
  rw [dif_neg (show ¬(1 : Fin S4x1x4096.rank) ∈ dot_S4x1x4096_S4x4096x64_S4x1x64_2_1_1_2_0_0.lhsBatch by decide), dif_pos (show (1 : Fin S4x1x4096.rank) ∈ dot_S4x1x4096_S4x4096x64_S4x1x64_2_1_1_2_0_0.lhsNonContracting by decide)]
  rfl
theorem lhs2 (j : S4x1x64.Idx) (q : dot_S4x1x4096_S4x4096x64_S4x1x64_2_1_1_2_0_0.contr.Idx) : (dot_S4x1x4096_S4x4096x64_S4x1x64_2_1_1_2_0_0.lhsIdx j q 2).val = (q ⟨0, by decide⟩).val :=
  dot_S4x1x4096_S4x4096x64_S4x1x64_2_1_1_2_0_0.lhsIdx_val_of_single rfl j q
theorem rhs0 (j : S4x1x64.Idx) (q : dot_S4x1x4096_S4x4096x64_S4x1x64_2_1_1_2_0_0.contr.Idx) : (dot_S4x1x4096_S4x4096x64_S4x1x64_2_1_1_2_0_0.rhsIdx j q 0).val = (j 0).val := by
  unfold DotDims.rhsIdx
  rw [dif_pos (show (0 : Fin S4x4096x64.rank) ∈ dot_S4x1x4096_S4x4096x64_S4x1x64_2_1_1_2_0_0.rhsBatch by decide)]
  rfl
theorem rhs1 (j : S4x1x64.Idx) (q : dot_S4x1x4096_S4x4096x64_S4x1x64_2_1_1_2_0_0.contr.Idx) : (dot_S4x1x4096_S4x4096x64_S4x1x64_2_1_1_2_0_0.rhsIdx j q 1).val = (q ⟨0, by decide⟩).val :=
  dot_S4x1x4096_S4x4096x64_S4x1x64_2_1_1_2_0_0.rhsIdx_val_of_single rfl j q
theorem rhs2 (j : S4x1x64.Idx) (q : dot_S4x1x4096_S4x4096x64_S4x1x64_2_1_1_2_0_0.contr.Idx) : (dot_S4x1x4096_S4x4096x64_S4x1x64_2_1_1_2_0_0.rhsIdx j q 2).val = (j 2).val := by
  unfold DotDims.rhsIdx
  rw [dif_neg (show ¬(2 : Fin S4x4096x64.rank) ∈ dot_S4x1x4096_S4x4096x64_S4x1x64_2_1_1_2_0_0.rhsBatch by decide), dif_pos (show (2 : Fin S4x4096x64.rank) ∈ dot_S4x1x4096_S4x4096x64_S4x1x64_2_1_1_2_0_0.rhsNonContracting by decide)]
  rfl

/-- The accumulator payload at `(p, 0, u)`: what the accumulator held there plus the contraction of row `p`'s 4096
    weights with column `u` of the row's 4096 values. -/
theorem acc_apply (v6 : Vec Ideal S4x1x4096 .bf16) (v7 : Vec Ideal S4x4096x64 .f32) (v10 : Vec Ideal S4x1x64 .f32)
    (p : Fin 4) (u : Fin 64) :
    k0_pay3 (F := Ideal) v6 v7 v10 (ix3 p 0 u) = v10 (ix3 p 0 u) + ∑ k : Fin 4096, v6 (ix3 p 0 k) * v7 (ix3 p k u) := by
  unfold k0_pay3
  (try dsimp only)
  rw [shapeCast_self]
  show v10 (ix3 p 0 u) + FloatOps.matmul (F := Ideal) dot_S4x1x4096_S4x4096x64_S4x1x64_2_1_1_2_0_0 none v6 (truncf (F := Ideal) .bf16 v7 bitsLt_bf16_f32) (constant (F := Ideal) S4x1x64 .f32 0x00000000#32) (ix3 p 0 u) = _
  rw [Ideal.matmul_constant_zero_apply, ← Equiv.sum_comp (contrEquiv1 dot_S4x1x4096_S4x4096x64_S4x1x64_2_1_1_2_0_0 4096 rfl rfl).symm]
  refine congrArg (v10 (ix3 p 0 u) + ·) (Finset.sum_congr rfl fun k _ => ?_)
  have hk := contrEquiv1_symm_val dot_S4x1x4096_S4x4096x64_S4x1x64_2_1_1_2_0_0 4096 rfl rfl k
  have el : dot_S4x1x4096_S4x4096x64_S4x1x64_2_1_1_2_0_0.lhsIdx (ix3 p 0 u) ((contrEquiv1 dot_S4x1x4096_S4x4096x64_S4x1x64_2_1_1_2_0_0 4096 rfl rfl).symm k) = ix3 p 0 k := funext fun a => Fin.ext (by
    match a with
    | ⟨0, _⟩ => exact lhs0 _ _
    | ⟨1, _⟩ => exact lhs1 _ _
    | ⟨2, _⟩ => exact (lhs2 _ _).trans hk)
  have er : dot_S4x1x4096_S4x4096x64_S4x1x64_2_1_1_2_0_0.rhsIdx (ix3 p 0 u) ((contrEquiv1 dot_S4x1x4096_S4x4096x64_S4x1x64_2_1_1_2_0_0 4096 rfl rfl).symm k) = ix3 p k u := funext fun a => Fin.ext (by
    match a with
    | ⟨0, _⟩ => exact rhs0 _ _
    | ⟨1, _⟩ => exact (rhs1 _ _).trans hk
    | ⟨2, _⟩ => exact rhs2 _ _)
  rw [el, er]
  rfl

/-- The zero block the accumulator is reset to reads `0`. -/
theorem zero_apply (j : S4x1x64.Idx) : k0_pay2 (F := Ideal) j = 0 := by
  unfold k0_pay2
  (try dsimp only)
  rw [shapeCast_self]
  exact Ideal.ofBits_zero_f32

/-- The half of the weights a step contracts, at `(p, 0, k)`: the weights at position `4096 · (the step's position
    coordinate) + k`. -/
theorem half_apply {F : FTy → Type} [FloatOps F] (i : grid0.Coords) (w : Vec F S4x1x8192 .bf16) (p : Fin 4) (k : Fin 4096) (q : Fin 8192)
    (hq : q.val = 4096 * (i 1).val + k.val) : half i w (ix3 p 0 k) = w (ix3 p 0 q) := by
  show w _ = w _
  refine congrArg w (funext fun a => Fin.ext ?_)
  match a with
  | ⟨0, _⟩ => show k0_off1 i 0 + 1 * p.val = p.val; rw [k0_off1_eq]; show 0 + 1 * p.val = p.val; omega
  | ⟨1, _⟩ => show k0_off1 i 1 + 1 * 0 = 0; rw [k0_off1_eq]; rfl
  | ⟨2, _⟩ => show k0_off1 i 2 + 1 * k.val = q.val; rw [k0_off1_eq, hq]; show 4096 * (i 1).val + 1 * k.val = _; omega

/-- A mask bit widened to a 32-bit word and compared with zero is the bit. -/
theorem mask_bit (w : BitVec 1) : Scalar.cmpi .ne (w.setWidth 32) 0#32 = w := by
  by_cases h : w = 1#1
  · subst h; decide
  · have h0 := eq_zero_of_ne_one h; subst h0; decide

/-! ## One batch block after its two steps -/

/-- The accumulator after a block's two steps, at `(p, 0, u)`, is the attention output of the batch row `r p` that
    local row `p` of the block is: the first step adds, into the zero block, the contraction of the first 4096
    weights with the first 4096 values; the second adds the contraction of the last 4096 with the last 4096; the
    weights both steps read are the softmax of the row's masked scores, and the widened mask word compared with
    zero is the mask bit. -/
theorem two_steps_value
    (a : (⟨3, ![128, 1, 8192]⟩ : Shape).Idx → EReal) (v : (⟨3, ![128, 8192, 64]⟩ : Shape).Idx → EReal)
    (μ : (⟨3, ![128, 1, 8192]⟩ : Shape).Idx → BitVec 1)
    (i i' : grid0.Coords) (hi : (i 1).val = 1) (hi' : (i' 1).val = 0)
    (X0 : Vec Ideal S4x1x8192 .f32) (X2 : Vec Ideal S4x1x8192 .i32) (Y Y' : Vec Ideal S4x4096x64 .f32)
    (r : Fin 4 → Fin 128)
    (hX0 : ∀ (p : Fin 4) (k : Fin 8192), X0 (ix3 p 0 k) = a (ix3 (r p) 0 k))
    (hX2 : ∀ (p : Fin 4) (k : Fin 8192), X2 (ix3 p 0 k) = (μ (ix3 (r p) 0 k)).setWidth 32)
    (hY' : ∀ (p : Fin 4) (k : Fin 4096) (u : Fin 64), Y' (ix3 p k u) = v (ix3 (r p) (Fin.castAdd 4096 k) u))
    (hY : ∀ (p : Fin 4) (k : Fin 4096) (u : Fin 64), Y (ix3 p k u) = v (ix3 (r p) (Fin.natAdd 4096 k) u))
    (p : Fin 4) (u : Fin 64) :
    k0_pay3 (F := Ideal) (half i (k0_pay1 X0 X2)) Y (k0_pay3 (half i' (k0_pay1 X0 X2)) Y' (k0_pay2 (F := Ideal))) (ix3 p 0 u)
      = outAt a v μ (r p) u := by
  have hs : blkScore X0 X2 p = score a μ (r p) := funext fun k => by
    unfold blkScore score
    rw [hX0, hX2, mask_bit]
  rw [acc_apply, acc_apply, zero_apply, outAt_two_steps]
  refine congrArg₂ (· + ·) (congrArg (0 + ·) (Finset.sum_congr rfl fun k _ => ?_)) (Finset.sum_congr rfl fun k _ => ?_)
  · rw [half_apply i' _ p k (Fin.castAdd 4096 k) (by rw [hi']; have := Fin.coe_castAdd 4096 k; omega),
      softmax_apply, hs, hY']
  · rw [half_apply i _ p k (Fin.natAdd 4096 k) (by rw [hi]; have := Fin.coe_natAdd 4096 k; omega),
      softmax_apply, hs, hY]

end Cert.KernelIdeal.Rows

end
-- ==== Proof.Blocks.lean ====
/-
  From the kernel's steps to its result array.

  The grid has 64 points: point `t` is step `t mod 2` of batch block `t / 2` (four batch rows). A first step
  (`t` even) writes the block's softmax weights and starts the accumulator; a last step (`t` odd) adds the second
  half and is the only one whose output block is written back. So the block a last step writes back is, entry by
  entry, the attention output of the four batch rows `4 (t / 2) + p` (Rows.lean's two-step value, with the step's
  blocks read off the argument arrays); the 32 written blocks tile the result array, which therefore ends holding
  the attention output of Spec.lean.
-/
import proofs.«159223_j16355235463569_2_alg».proof.Proof.Gen.KernelIdeal.Value
import proofs.«159223_j16355235463569_2_alg».proof.Proof.Rows
import Idealize.ShloMosaic.Lib.StableHlo.Run

noncomputable section

namespace Cert.KernelIdeal.Blocks

open Cert.KernelIdeal Cert.KernelIdeal.Gen Cert.KernelIdeal.Pieces Cert.KernelIdeal.Rows Cert.Attn
open Idealize.ShloMosaic Idealize.ShloMosaic.TcCoe Idealize.ShloMosaic.ValueIdx Idealize.SL.Sem
open Idealize.ShloMosaic.Pipeline (Dat)

/-! ## What the buffers hold after the two steps of a batch block -/

section Steps

variable {F : FTy → Type} [FloatOps F]
variable (m : (ℓ : Loc nD τ sig) → Buf (Elt F) ℓ)

/-- The step before a step. -/
def prev (t : Fin cfg0.N) : Fin cfg0.N := ⟨t.val - 1, Nat.lt_of_le_of_lt (Nat.sub_le _ _) t.isLt⟩

/-- After a first step the weights scratch holds the softmax payload of the step's score and mask blocks. -/
theorem weights_at_first (c : Dev nD) (t : Fin cfg0.N) (h0 : t.val % 2 = 0) :
    (outsAt0 m c t.val t.isLt).2.1 = k0_pay1 (iblk m c 0 t) (iblk m c 2 t) := by
  have h1 : ¬t.val % 2 = 1 := by omega
  rw [outsAt0_A m c t h0 h1]
  dsimp only
  exact weights_first (F := F) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t)

/-- After a first step the accumulator holds the zero block plus the first half's contraction. -/
theorem acc_at_first (c : Dev nD) (t : Fin cfg0.N) (h0 : t.val % 2 = 0) :
    (outsAt0 m c t.val t.isLt).2.2
      = k0_pay3 (half (grid0.coords t) (k0_pay1 (iblk m c 0 t) (iblk m c 2 t))) (iblk m c 1 t) (k0_pay2 (F := F)) := by
  have h1 : ¬t.val % 2 = 1 := by omega
  rw [outsAt0_A m c t h0 h1]
  dsimp only
  exact acc_first (F := F) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t)

/-- After a last step the output's staging buffer holds the second half's contraction added to what the first
    step left: both halves of the weights the first step wrote, each against its own block of values. -/
theorem out_at_last (c : Dev nD) (t : Fin cfg0.N) (h1 : t.val % 2 = 1) :
    (outsAt0 m c t.val t.isLt).1
      = k0_pay3 (half (grid0.coords t) (k0_pay1 (iblk m c 0 (prev t)) (iblk m c 2 (prev t)))) (iblk m c 1 t)
          (k0_pay3 (half (grid0.coords (prev t)) (k0_pay1 (iblk m c 0 (prev t)) (iblk m c 2 (prev t)))) (iblk m c 1 (prev t)) (k0_pay2 (F := F))) := by
  have h0 : ¬t.val % 2 = 0 := by omega
  have hp0 : (prev t).val % 2 = 0 := by show (t.val - 1) % 2 = 0; omega
  rw [outsAt0_B m c t h0 h1]
  dsimp only
  refine (out_last (F := F) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2.1
    (outsAt0 m c (t.val - 1) (Nat.lt_of_le_of_lt (Nat.sub_le _ _) t.isLt)).2.2).trans ?_
  exact congr (congrArg (fun w a => k0_pay3 (half (grid0.coords t) w) (iblk m c 1 t) a) (weights_at_first m c (prev t) hp0))
    (acc_at_first m c (prev t) hp0)

end Steps

/-! ## The blocks a step loads, read off the argument arrays -/

section Array

variable (m : (ℓ : Loc nD τ sig) → Buf (Elt Ideal) ℓ) (ρ : Dev nD → PrngReg)

/-- The printed index maps over the 64 grid points: point `t` is step `t mod 2` of batch block `t / 2`; the score,
    mask and output windows follow the batch block alone, the value window also the step. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0
    ∧ (grid0.coords t 1).val = t.val % 2 :=
  (by decide +kernel : ∀ t : Fin grid0.N, _)

/-- The mask the kernel stages is the argument's bits widened to 32-bit words (the one host operation before the call). -/
theorem mask_words (c : Dev nD) :
    (V m c main_v0 : S128x1x8192.Idx → BitVec 32) = extui 32 (m ((c : Thread nD τ).loc main_arg2)) natLt_1_32 := by
  dsimp only [Gen.V, Gen.hostOps0]; after_results

/-- Row `p` of the score block of point `t` is batch row `4 (t / 2) + p` of the scores. -/
theorem score_blk (c : Dev nD) (t : Fin cfg0.N) (p : Fin 4) (k : Fin 8192) (b : Fin 128) (hb : b.val = 4 * (t.val / 2) + p.val) :
    iblk m c 0 t (ix3 p 0 k) = m ((c : Thread nD τ).loc main_arg0) (ix3 b 0 k) := by
  obtain ⟨e0, e1, e2, -⟩ := idx_facts t
  show V m c main_arg0 (((cfg0.win 0).blk t).view.emb (ix3 p 0 k)) = _
  rw [V_main_arg0]
  refine congrArg (m ((c : Thread nD τ).loc main_arg0)) (funext fun a => Fin.ext ?_)
  match a with
  | ⟨0, _⟩ => show win0_0.index t (0 : Fin 3) * 4 + 1 * p.val = b.val; omega
  | ⟨1, _⟩ => show win0_0.index t (1 : Fin 3) * 1 + 1 * 0 = 0; omega
  | ⟨2, _⟩ => show win0_0.index t (2 : Fin 3) * 8192 + 1 * k.val = k.val; omega

/-- Row `p` of the mask block of point `t` is batch row `4 (t / 2) + p` of the mask, each bit widened. -/
theorem mask_blk (c : Dev nD) (t : Fin cfg0.N) (p : Fin 4) (k : Fin 8192) (b : Fin 128) (hb : b.val = 4 * (t.val / 2) + p.val) :
    iblk m c 2 t (ix3 p 0 k) = (m ((c : Thread nD τ).loc main_arg2) (ix3 b 0 k)).setWidth 32 := by
  obtain ⟨-, -, -, -, -, -, e0, e1, e2, -⟩ := idx_facts t
  show V m c main_v0 (((cfg0.win 2).blk t).view.emb (ix3 p 0 k)) = _
  rw [mask_words]
  show (m ((c : Thread nD τ).loc main_arg2) _).setWidth 32 = _
  refine congrArg (fun j => (m ((c : Thread nD τ).loc main_arg2) j).setWidth 32) (funext fun a => Fin.ext ?_)
  match a with
  | ⟨0, _⟩ => show win0_2.index t (0 : Fin 3) * 4 + 1 * p.val = b.val; omega
  | ⟨1, _⟩ => show win0_2.index t (1 : Fin 3) * 1 + 1 * 0 = 0; omega
  | ⟨2, _⟩ => show win0_2.index t (2 : Fin 3) * 8192 + 1 * k.val = k.val; omega

/-- Row `p` of the value block of point `t` is positions `4096 (t mod 2) + ·` of batch row `4 (t / 2) + p` of the values. -/
theorem value_blk (c : Dev nD) (t : Fin cfg0.N) (p : Fin 4) (k : Fin 4096) (u : Fin 64) (b : Fin 128) (q : Fin 8192)
    (hb : b.val = 4 * (t.val / 2) + p.val) (hq : q.val = 4096 * (t.val % 2) + k.val) :
    iblk m c 1 t (ix3 p k u) = m ((c : Thread nD τ).loc main_arg1) (ix3 b q u) := by
  obtain ⟨-, -, -, e0, e1, e2, -⟩ := idx_facts t
  show V m c main_arg1 (((cfg0.win 1).blk t).view.emb (ix3 p k u)) = _
  rw [V_main_arg1]
  refine congrArg (m ((c : Thread nD τ).loc main_arg1)) (funext fun a => Fin.ext ?_)
  match a with
  | ⟨0, _⟩ => show win0_1.index t (0 : Fin 3) * 4 + 1 * p.val = b.val; omega
  | ⟨1, _⟩ => show win0_1.index t (1 : Fin 3) * 4096 + 1 * k.val = q.val; omega
  | ⟨2, _⟩ => show win0_1.index t (2 : Fin 3) * 64 + 1 * u.val = u.val; omega

/-! ## The result array -/

/-- What the result array ends holding: the attention output of the three argument arrays. -/
abbrev result (c : Dev nD) : Buf (Elt Ideal) ((c : Thread nD τ).loc main_v1) :=
  out (m ((c : Thread nD τ).loc main_arg0)) (m ((c : Thread nD τ).loc main_arg1)) (m ((c : Thread nD τ).loc main_arg2))

/-- What a last step writes back is its batch block of the attention output. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have hN : t.val < 64 := lt_of_lt_of_eq t.isLt (show cfg0.N = 64 from N_0)
  have hpv : (prev t).val = t.val - 1 := rfl
  obtain ⟨-, -, -, -, -, -, -, -, -, d0, d1, d2, g1⟩ := idx_facts t
  obtain ⟨-, -, -, -, -, -, -, -, -, -, -, -, g1'⟩ := idx_facts (prev t)
  have hrow : ∀ p : Fin 4, 4 * (t.val / 2) + p.val < 128 := fun p => by have := p.isLt; omega
  rw [Value.flushed3, out_at_last m c t h1]
  funext y
  obtain ⟨p, z, u, rfl⟩ : ∃ (p : Fin 4) (z : Fin 1) (u : Fin 64), y = ix3 p z u := ⟨y 0, y 1, y 2, eq_ix3 y⟩
  obtain rfl : z = 0 := Subsingleton.elim _ _
  show k0_pay3 (F := Ideal) (half (grid0.coords t) (k0_pay1 (iblk m c 0 (prev t)) (iblk m c 2 (prev t)))) (iblk m c 1 t)
      (k0_pay3 (half (grid0.coords (prev t)) (k0_pay1 (iblk m c 0 (prev t)) (iblk m c 2 (prev t)))) (iblk m c 1 (prev t)) (k0_pay2 (F := Ideal))) (ix3 p 0 u)
    = result m c (((cfg0.win 3).blk t).view.emb (ix3 p 0 u))
  have hemb : ((cfg0.win 3).blk t).view.emb (ix3 p (0 : Fin 1) u) = ix3 (⟨4 * (t.val / 2) + p.val, hrow p⟩ : Fin 128) (0 : Fin 1) u :=
    funext fun a => Fin.ext (by
      match a with
      | ⟨0, _⟩ => show win0_3.index t (0 : Fin 3) * 4 + 1 * p.val = 4 * (t.val / 2) + p.val; omega
      | ⟨1, _⟩ => show win0_3.index t (1 : Fin 3) * 1 + 1 * 0 = 0; omega
      | ⟨2, _⟩ => show win0_3.index t (2 : Fin 3) * 64 + 1 * u.val = u.val; omega)
  rw [hemb]
  show _ = outAt _ _ _ (⟨4 * (t.val / 2) + p.val, hrow p⟩ : Fin 128) u
  exact two_steps_value (m ((c : Thread nD τ).loc main_arg0)) (m ((c : Thread nD τ).loc main_arg1)) (m ((c : Thread nD τ).loc main_arg2))
    (grid0.coords t) (grid0.coords (prev t)) (by rw [g1]; exact h1) (by rw [g1', hpv]; omega)
    (iblk m c 0 (prev t)) (iblk m c 2 (prev t)) (iblk m c 1 t) (iblk m c 1 (prev t))
    (fun p => (⟨4 * (t.val / 2) + p.val, hrow p⟩ : Fin 128))
    (fun p k => score_blk m c (prev t) p k _ (by show 4 * (t.val / 2) + p.val = 4 * ((prev t).val / 2) + p.val; rw [hpv]; omega))
    (fun p k => mask_blk m c (prev t) p k _ (by show 4 * (t.val / 2) + p.val = 4 * ((prev t).val / 2) + p.val; rw [hpv]; omega))
    (fun p k u => value_blk m c (prev t) p k u _ _ (by show 4 * (t.val / 2) + p.val = 4 * ((prev t).val / 2) + p.val; rw [hpv]; omega)
      (by rw [hpv]; have := Fin.coe_castAdd 4096 k; omega))
    (fun p k u => value_blk m c t p k u _ _ rfl (by have := Fin.coe_natAdd 4096 k; omega))
    p u

/-- An index of the result array is in point `t`'s block iff each coordinate is in the block's range on its axis. -/
theorem mem_blk (t : Fin cfg0.N) (i : S128x1x64.Idx) :
    i ∈ ((cfg0.win 3).blk t).view.set ↔ ∀ a : Fin 3, win0_3.index t a * S4x1x64.size a ≤ (i a).val ∧ (i a).val < win0_3.index t a * S4x1x64.size a + S4x1x64.size a := by
  show i ∈ ((View.whole main_v1).slice (win0_3.rect t)).set ↔ _
  rw [View.set_slice_whole, Rect.mem_set_unit]
  exact Iff.rfl

/-- Every entry of the result array is written back by the last step of its batch block. -/
theorem cover (i : S128x1x64.Idx) : ∃ t : Fin cfg0.N, (cfg0.win 3).flush t = true ∧ i ∈ ((cfg0.win 3).blk t).view.set := by
  have hi0 : (i 0).val < 128 := (i 0).isLt
  have hi1 : (i 1).val < 1 := (i 1).isLt
  have hi2 : (i 2).val < 64 := (i 2).isLt
  have hN : cfg0.N = 64 := N_0
  let t : Fin cfg0.N := ⟨2 * ((i 0).val / 4) + 1, by rw [hN]; omega⟩
  have htv : t.val = 2 * ((i 0).val / 4) + 1 := rfl
  obtain ⟨-, -, -, -, -, -, -, -, -, d0, d1, d2, -⟩ := idx_facts t
  refine ⟨t, (flush0_3 t).mpr (by rw [htv]; omega), ?_⟩
  rw [mem_blk]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 1 ≤ (i 1).val ∧ (i 1).val < win0_3.index t (1 : Fin 3) * 1 + 1; omega
  | ⟨2, _⟩ => show win0_3.index t (2 : Fin 3) * 64 ≤ (i 2).val ∧ (i 2).val < win0_3.index t (2 : Fin 3) * 64 + 64; omega

/-- So the result array ends holding the attention output. -/
theorem final (c : Dev nD) : (dats m 0 c).arrAt 3 cfg0.N = result m c :=
  (dats m 0 c).arrAt_eq_of_cover 3 (result m c) (flushed_eq m c) cover

/-- The kernel's run, read: the result array at the attention output of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Array

end Cert.KernelIdeal.Blocks

end
-- ==== Proof.RefRows.lean ====
/-
  The reference computes the attention output of Spec.lean: its host operations read one at a time at an index.
  The scores are the select of the alignment scores and the fill; the row maximum is the host's maximum-reduce from
  `-∞` (taken once more with `-∞`, which changes nothing); the weights are the shifted exponentials over their host sum
  (whose initial value is `0`); the result is the host's contraction over all 8192 positions.
-/
import proofs.«159223_j16355235463569_2_alg».proof.Proof.Gen.ReferenceIdeal.Read
import proofs.«159223_j16355235463569_2_alg».proof.Proof.Spec

noncomputable section

namespace Cert.ReferenceIdeal.RefRows

open Cert.ReferenceIdeal Cert.ReferenceIdeal.Gen Cert.ReferenceIdeal.Read Cert.Attn
open Idealize.ShloMosaic Idealize.ShloMosaic.ValueIdx

variable (x0 : (⟨S128x1x8192, .f32⟩ : BufTy).Contents (Elt Ideal)) (x1 : (⟨S128x8192x64, .f32⟩ : BufTy).Contents (Elt Ideal))
  (x2 : (⟨S128x1x8192, .i1⟩ : BufTy).Contents (Elt Ideal))

/-- The selected scores at `(b, 0, k)`. -/
theorem ref_score (b : Fin 128) (k : Fin 8192) : val_main_v0 (F := Ideal) x0 x2 (ix3 b 0 k) = score x0 x2 b k := by
  rw [val_main_v0_apply, val_main_call0_v1_apply, val_main_call0_v0_apply, val_main_cst_apply]
  rfl

theorem reduces_rows : S128x1x8192.Reduces [2] S128x1 := by decide

theorem lift_row (h : S128x1x8192.Reduces [2] S128x1) (b : Fin 128) (k : Fin 8192) :
    h.lift (ix2 b (0 : Fin 1)) k = ix3 b 0 k :=
  funext fun a => Fin.ext (by match a with | ⟨0, _⟩ => rfl | ⟨1, _⟩ => rfl | ⟨2, _⟩ => rfl)

/-- The row maximum the reference subtracts, at row `b`. -/
theorem ref_max (b : Fin 128) : val_main_v3 (F := Ideal) x0 x2 (ix2 b (0 : Fin 1)) = rowMax (score x0 x2 b) := by
  rw [val_main_v3_apply, val_main_v2_apply, val_main_cst_1_apply]
  unfold val_main_v1
  rw [Host.reduce_eq_fold_single FloatOps.maximumf _ _ reducesTo_S128x1x8192_S128x1_d2 reduces_rows h_S_]
  have e : (val_main_v0 (F := Ideal) x0 x2 ∘ reduces_rows.lift (ix2 b (0 : Fin 1))) = score x0 x2 b :=
    funext fun k => (congrArg (val_main_v0 (F := Ideal) x0 x2) (lift_row reduces_rows b k)).trans (ref_score x0 x2 b k)
  rw [e]
  exact max_seed_rowMax (score x0 x2 b)

/-- The shifted exponentials at `(b, 0, k)`. -/
theorem ref_exp (b : Fin 128) (k : Fin 8192) : val_main_v7 (F := Ideal) x0 x2 (ix3 b 0 k) = rowExp (score x0 x2 b) k := by
  rw [val_main_v7_apply, val_main_v6_apply, val_main_v5_apply, val_main_v4_apply,
    show idx_main_v4 (idx_main_v5 (ix3 b 0 k)) = ix2 b (0 : Fin 1) from
      funext fun a => Fin.ext (by match a with | ⟨0, _⟩ => rfl | ⟨1, _⟩ => rfl),
    ref_max, ref_score]
  rfl

/-- Their host sum at row `b`. -/
theorem ref_sum (b : Fin 128) : val_main_v8 (F := Ideal) x0 x2 (ix2 b (0 : Fin 1)) = ∑ j : Fin 8192, rowExp (score x0 x2 b) j := by
  rw [val_main_v8_apply]
  show Ideal.ofBits .f32 0x00000000#32 + _ = _
  rw [Ideal.ofBits_zero_f32, zero_add]
  refine Finset.sum_congr rfl fun k _ => ?_
  rw [show idx_main_v8 (ix2 b (0 : Fin 1)) k = ix3 b 0 k from
      funext fun a => Fin.ext (by match a with | ⟨0, _⟩ => rfl | ⟨1, _⟩ => rfl | ⟨2, _⟩ => rfl), ref_exp]

/-- The weights at `(b, 0, k)`. -/
theorem ref_weight (b : Fin 128) (k : Fin 8192) : val_main_v11 (F := Ideal) x0 x2 (ix3 b 0 k) = weight (score x0 x2 b) k := by
  rw [val_main_v11_apply, val_main_v10_apply, val_main_v9_apply,
    show idx_main_v9 (idx_main_v10 (ix3 b 0 k)) = ix2 b (0 : Fin 1) from
      funext fun a => Fin.ext (by match a with | ⟨0, _⟩ => rfl | ⟨1, _⟩ => rfl),
    ref_sum, ref_exp]
  rfl

/-- The reference's result is the attention output. -/
theorem reference_is_out : val_main_v12 (F := Ideal) x0 x1 x2 = out x0 x1 x2 := by
  funext i
  obtain ⟨b, z, u, rfl⟩ : ∃ (b : Fin 128) (z : Fin 1) (u : Fin 64), i = ix3 b z u := ⟨i 0, i 1, i 2, eq_ix3 i⟩
  obtain rfl : z = 0 := Subsingleton.elim _ _
  rw [val_main_v12_apply, out_ix3]
  unfold outAt
  refine Finset.sum_congr rfl fun k _ => ?_
  have el : lidx_main_v12 (ix3 b (0 : Fin 1) u) k = ix3 b 0 k := funext fun a => Fin.ext (by
    match a with
    | ⟨0, _⟩ => rfl
    | ⟨1, _⟩ => rfl
    | ⟨2, _⟩ => rfl)
  have er : ridx_main_v12 (ix3 b (0 : Fin 1) u) k = ix3 b k u := funext fun a => Fin.ext (by
    match a with
    | ⟨0, _⟩ => rfl
    | ⟨1, _⟩ => rfl
    | ⟨2, _⟩ => rfl)
  rw [el, er, ref_weight]

end Cert.ReferenceIdeal.RefRows

end
-- ==== Proof.lean ====
/-
  Masked softmax attention over 8192 positions, tiled over the batch and the positions, equals its plain reference
  on the extended reals.

  Both programs fill the masked-out scores with the same number `-2^32`, subtract the row maximum, exponentiate,
  divide by the row sum and contract the weights with the values. The reference does the contraction in one
  operation over all 8192 positions; the kernel keeps the weights in a scratch buffer and adds two contractions of
  4096 positions each into a zeroed accumulator. A sum over 8192 terms is the sum of its two halves in any
  commutative monoid, so no finiteness of the inputs is used: the precondition is never opened.
  Spec.lean states the common function; RefRows.lean reads the reference's operations as it; Pieces.lean, Rows.lean
  and Blocks.lean read the kernel's two steps per batch block as it and cover the result array with the written
  blocks. The three frames are the generated ones; the idealization rewrote nothing.
-/
import proofs.«159223_j16355235463569_2_alg».proof.Defs
import proofs.«159223_j16355235463569_2_alg».proof.Proof.Gen.Kernel
import proofs.«159223_j16355235463569_2_alg».proof.Proof.Gen.Kernel.Skeleton
import proofs.«159223_j16355235463569_2_alg».proof.Proof.Gen.Kernel.Launch
import proofs.«159223_j16355235463569_2_alg».proof.Proof.Gen.Kernel.Points
import proofs.«159223_j16355235463569_2_alg».proof.Proof.Gen.Kernel.Frame
import proofs.«159223_j16355235463569_2_alg».proof.Proof.Gen.KernelIdeal
import proofs.«159223_j16355235463569_2_alg».proof.Proof.Gen.KernelIdeal.Skeleton
import proofs.«159223_j16355235463569_2_alg».proof.Proof.Gen.KernelIdeal.Launch
import proofs.«159223_j16355235463569_2_alg».proof.Proof.Gen.KernelIdeal.Points
import proofs.«159223_j16355235463569_2_alg».proof.Proof.Gen.KernelIdeal.Frame
import proofs.«159223_j16355235463569_2_alg».proof.Proof.Gen.ReferenceIdeal
import proofs.«159223_j16355235463569_2_alg».proof.Proof.Gen.KernelIdeal.Value
import proofs.«159223_j16355235463569_2_alg».proof.Proof.Gen.ReferenceIdeal.Run
import proofs.«159223_j16355235463569_2_alg».proof.Proof.Gen.ReferenceIdeal.Read
import proofs.«159223_j16355235463569_2_alg».proof.Proof.Gen.Pre_finite_inputs
import proofs.«159223_j16355235463569_2_alg».proof.Proof.Blocks
import proofs.«159223_j16355235463569_2_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's both end at the attention output of
    arguments that agree. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v12_eq _ _ _).trans (Cert.ReferenceIdeal.RefRows.reference_is_out _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
